-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x16 : Shape := ⟨2, ![800000, 16]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S50000x128 .f32) (main_arg1 : FVec F S800000x16 .f32) (main_arg2 : IVec S2x800000 32) (main_arg3 : FVec F S3x128x128 .f32) (main_arg4 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S50000x128 : Shape := ⟨2, ![50000, 128]⟩
abbrev S800000x16 : Shape := ⟨2, ![800000, 16]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩

abbrev nBuf : Space → Nat
  | .hbm => 122
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S2x800000, .i32⟩
  | .hbm, ⟨3, _⟩ => ⟨S3x128x128, .f32⟩
  | .hbm, ⟨4, _⟩ => ⟨S3x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S800000x1, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S800000x1, .f32⟩
  | .hbm, ⟨87, _⟩ => ⟨S800000x128, .f32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S1x128x128, .f32⟩
  | .hbm, ⟨98, _⟩ => ⟨S128x128, .f32⟩
  | .hbm, ⟨99, _⟩ => ⟨S1x128, .f32⟩
  | .hbm, ⟨100, _⟩ => ⟨S128, .f32⟩
  | .hbm, ⟨101, _⟩ => ⟨S1x128, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S_, .i32⟩
  | .hbm, ⟨106, _⟩ => ⟨S800000, .i32⟩
  | .hbm, ⟨107, _⟩ => ⟨S800000, .i1⟩
  | .hbm, ⟨108, _⟩ => ⟨S_, .i32⟩
  | .hbm, ⟨109, _⟩ => ⟨S800000, .i32⟩
  | .hbm, ⟨110, _⟩ => ⟨S800000, .i32⟩
  | .hbm, ⟨111, _⟩ => ⟨S800000, .i32⟩
  | .hbm, ⟨112, _⟩ => ⟨S800000x1, .i32⟩
  | .hbm, ⟨113, _⟩ => ⟨S800000x128, .f32⟩
  | .hbm, ⟨114, _⟩ => ⟨S800000x1, .f32⟩
  | .hbm, ⟨115, _⟩ => ⟨S800000x128, .f32⟩
  | .hbm, ⟨116, _⟩ => ⟨S800000x128, .f32⟩
  | .hbm, ⟨117, _⟩ => ⟨S_, .f32⟩
  | .hbm, ⟨118, _⟩ => ⟨S50000x128, .f32⟩
  | .hbm, ⟨119, _⟩ => ⟨S800000x1, .i32⟩
  | .hbm, ⟨120, _⟩ => ⟨S50000x128, .f32⟩
  | .hbm, ⟨121, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S1x128, .f32⟩
  | .local _ .vmem, ⟨14, _⟩ => ⟨S2000x1, .f32⟩
  | .local _ .vmem, ⟨15, _⟩ => ⟨S2000x1, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56_0 : Ref sig .tc := ⟨.hbm, 75, rfl⟩
abbrev main_v56_1 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_cst : Ref sig .tc := ⟨.hbm, 94, rfl⟩
abbrev main_call1_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78_0 : Ref sig .tc := ⟨.hbm, 103, rfl⟩
abbrev main_v78_1 : Ref sig .tc := ⟨.hbm, 104, rfl⟩
abbrev main_c_12 : Ref sig .tc := ⟨.hbm, 105, rfl⟩
abbrev main_v79 : Ref sig .tc := ⟨.hbm, 106, rfl⟩
abbrev main_v80 : Ref sig .tc := ⟨.hbm, 107, rfl⟩
abbrev main_c_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_14 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  shapeCasts_S2000x128_S2000x128 : S2000x128.ShapeCasts S2000x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v56_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56_1) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v71) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v78_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v78_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x16 : Shape := ⟨2, ![800000, 16]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S800000x128 : Shape := ⟨2, ![800000, 128]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S800000x16, .f32⟩
  | 2 => ⟨S2x800000, .i32⟩
  | 3 => ⟨S3x128x128, .f32⟩
  | 4 => ⟨S3x128, .f32⟩
  | 5 => ⟨S1x800000, .i32⟩
  | 6 => ⟨S800000, .i32⟩
  | 7 => ⟨S1x800000, .i32⟩
  | 8 => ⟨S800000, .i32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .f32⟩
  | 18 => ⟨S50000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .f32⟩
  | 39 => ⟨S50000, .f32⟩
  | 40 => ⟨S50000, .f32⟩
  | 41 => ⟨S1x128x128, .f32⟩
  | 42 => ⟨S128x128, .f32⟩
  | 43 => ⟨S1x128, .f32⟩
  | 44 => ⟨S128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S1x128, .f32⟩
  | 75 => ⟨S128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S800000x1, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S50000x1, .f32⟩
  | 94 => ⟨S50000x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S1x128x128, .f32⟩
  | 104 => ⟨S128x128, .f32⟩
  | 105 => ⟨S1x128, .f32⟩
  | 106 => ⟨S128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x1, .f32⟩
  | 118 => ⟨S800000x128, .f32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_cst : Ref sig .tc := ⟨.hbm, 69, rfl⟩
abbrev main_call0_v0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_9 : Ref sig .tc := ⟨.hbm, 77, rfl⟩
abbrev main_v59 : Ref sig .tc := ⟨.hbm, 78, rfl⟩
abbrev main_v60 : Ref sig .tc := ⟨.hbm, 79, rfl⟩
abbrev main_c_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_call1_cst : Ref sig .tc := ⟨.hbm, 100, rfl⟩
abbrev main_call1_v0 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_c_12 : Ref sig .tc := ⟨.hbm, 108, rfl⟩
abbrev main_v85 : Ref sig .tc := ⟨.hbm, 109, rfl⟩
abbrev main_v86 : Ref sig .tc := ⟨.hbm, 110, rfl⟩
abbrev main_c_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result array named.

  @main is three tiled launches among stretches of host operations.  Running it from a memory `m` leaves, at every
  buffer that outlives a launch, the contents obtained by folding the host operations and the launches' write-backs
  from `m` in program order (`Gen.W11`).  The generated frame keeps of that fold only "the arguments end as
  launched"; here the same run is stated once more keeping also the returned array `main_v92` at the fold's value
  there, which the later modules read back stage by stage.
-/
import proofs.«116558_j9294309228961_2_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the returned array `main_v92` ends at the
    fold's value, and the five arguments end as launched. -/
theorem run_result : θ_run defs (onTc (τ := τ) (main (F := F))) ⟨m, fun _ => 0, ρ⟩ (fun r => ∀ c : Dev nD,
      r.2.mem ((c.tc : Thread nD τ).loc main_v92) = W11 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v92 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c)⟩)

end Cert.KernelIdeal.KernelRun

end
-- ==== Proof.TileBody.lean ====
/-
  What one tile of a launch computes, entry by entry, on the extended reals.

  A launch's body works on a tile of 2000 rows: it multiplies the tile `x` (2000 × 128) by the layer's weight matrix `w`
  (128 × 128) into a zero accumulator — the narrowing of both operands to bf16 is the identity on exact values — and
  stores the product; then it scales row `p` of the product by that row's reciprocal degree `d p` (a 2000 × 1 column),
  adds the bias row `b` (1 × 128), and stores that as the second output.  At entry `(p, q)`:

      first output   =  ∑ k, x (p, k) · w (k, q)
      second output  =  (∑ k, x (p, k) · w (k, q)) · d (p, 0) + b (0, q).

  The three launches have the same body up to an identity reshape of the tile, so each statement is made three times.
-/
import proofs.«116558_j9294309228961_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileBody

open Cert.KernelIdeal Cert.KernelIdeal.Gen Idealize.ShloMosaic Idealize.ShloMosaic.ValueIdx

/-- The tile's matrix product into a zero accumulator, at entry `(p, q)`: the sum over the contracted axis. -/
theorem tile_matmul (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k :=
    funext fun a => Fin.ext (by
      match a with
      | ⟨0, _⟩ =>
        show (dot_S2000x128_S128x128_S2000x128_1_0_0_1_n_n.lhsIdx (ix2 p q) _ 0).val = p.val
        unfold DotDims.lhsIdx
        rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
        rfl
      | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ =>
        show (dot_S2000x128_S128x128_S2000x128_1_0_0_1_n_n.rhsIdx (ix2 p q) _ 1).val = q.val
        unfold DotDims.rhsIdx
        rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
        rfl)
  rw [el, er]

/-- A 2000 × 1 column spread along the rows of a 2000 × 128 tile: entry `(p, q)` is the column's entry `p`. -/
theorem col_spread (v : Vec Ideal S2000x1 .f32) (p : Fin 2000) (q : Fin 128) :
    broadcastTo S2000x128 v broadcasts_S2000x1_S2000x128 (ix2 p q) = v (ix2 p 0) :=
  broadcastTo_apply v broadcasts_S2000x1_S2000x128 (ix2 p q) (ix2 p 0) (fun a => by
    match a with
    | ⟨0, _⟩ => rfl
    | ⟨1, _⟩ => rfl)

/-- A 1 × 128 row spread down the columns of a 2000 × 128 tile: entry `(p, q)` is the row's entry `q`. -/
theorem row_spread (v : Vec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => by
    match a with
    | ⟨0, _⟩ => rfl
    | ⟨1, _⟩ => rfl)

/-! ## First launch -/

theorem product0 (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  rw [shapeCast_self]
  exact tile_matmul _ _ p q

theorem selfloop0 (x : Vec Ideal S2000x128 .f32) (w : Vec Ideal S128x128 .f32) (d : Vec Ideal S2000x1 .f32) (b : Vec Ideal S1x128 .f32)
    (p : Fin 2000) (q : Fin 128) :
    k0_pay2 (F := Ideal) x w d b (ix2 p q) = (∑ k : Fin 128, x (ix2 p k) * w (ix2 k q)) * d (ix2 p 0) + b (ix2 0 q) := by
  unfold k0_pay2
  rw [addf_apply, mulf_apply, product0, shapeCast_self, shapeCast_self, col_spread, row_spread]

/-! ## Second launch -/

theorem product1 (x : Vec Ideal S2000x128 .f32) (w : Vec Ideal S128x128 .f32) (p : Fin 2000) (q : Fin 128) :
    k1_pay1 (F := Ideal) x w (ix2 p q) = ∑ k : Fin 128, x (ix2 p k) * w (ix2 k q) := by
  unfold k1_pay1
  rw [shapeCast_self, shapeCast_self]
  exact tile_matmul _ _ p q

theorem selfloop1 (x : Vec Ideal S2000x128 .f32) (w : Vec Ideal S128x128 .f32) (d : Vec Ideal S2000x1 .f32) (b : Vec Ideal S1x128 .f32)
    (p : Fin 2000) (q : Fin 128) :
    k1_pay2 (F := Ideal) x w d b (ix2 p q) = (∑ k : Fin 128, x (ix2 p k) * w (ix2 k q)) * d (ix2 p 0) + b (ix2 0 q) := by
  unfold k1_pay2
  rw [addf_apply, mulf_apply, product1, shapeCast_self, shapeCast_self, col_spread, row_spread]

/-! ## Third launch -/

theorem product2 (x : Vec Ideal S2000x128 .f32) (w : Vec Ideal S128x128 .f32) (p : Fin 2000) (q : Fin 128) :
    k2_pay1 (F := Ideal) x w (ix2 p q) = ∑ k : Fin 128, x (ix2 p k) * w (ix2 k q) := by
  unfold k2_pay1
  rw [shapeCast_self, shapeCast_self]
  exact tile_matmul _ _ p q

theorem selfloop2 (x : Vec Ideal S2000x128 .f32) (w : Vec Ideal S128x128 .f32) (d : Vec Ideal S2000x1 .f32) (b : Vec Ideal S1x128 .f32)
    (p : Fin 2000) (q : Fin 128) :
    k2_pay2 (F := Ideal) x w d b (ix2 p q) = (∑ k : Fin 128, x (ix2 p k) * w (ix2 k q)) * d (ix2 p 0) + b (ix2 0 q) := by
  unfold k2_pay2
  rw [addf_apply, mulf_apply, product2, shapeCast_self, shapeCast_self, col_spread, row_spread]

end Cert.KernelIdeal.TileBody

end
-- ==== Proof.LayerSpec.lean ====
/-
  One layer's two dense outputs as whole arrays, and the regrouping of its final sum.

  For node features `x` (50000 × 128), a weight matrix `w` (128 × 128), reciprocal degrees `d` (50000 × 1) and a bias row
  `b` (1 × 128):

      product x w      (r, q) = ∑ k, x (r, k) · w (k, q)                  -- the linear transform  x · w
      selfLoop x w d b (r, q) = product x w (r, q) · d (r, 0) + b (0, q)   -- self-loop term plus bias

  The kernel adds the scattered messages `s` to `selfLoop`, that is `s + (a + b)`, where the reference computes
  `(s + a) + b`.  Addition of extended reals is associative with no finiteness condition, so the two agree everywhere.
-/
import Idealize.ShloMosaic.PureOps.Ideal
import Idealize.ShloMosaic.Lib.ValueIdx

noncomputable section

namespace Cert.LayerSpec

open Idealize.ShloMosaic Idealize.ShloMosaic.ValueIdx

/-- The linear transform `x · w`, entry by entry. -/
def product (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (i 0) k) * w (ix2 k (i 1))

/-- The self-loop term plus bias: row `r` of `x · w` scaled by `d r`, plus `b`. -/
def selfLoop (x : (⟨2, ![50000, 128]⟩ : Shape).Idx → EReal) (w : (⟨2, ![128, 128]⟩ : Shape).Idx → EReal)
    (d : (⟨2, ![50000, 1]⟩ : Shape).Idx → EReal) (b : (⟨2, ![1, 128]⟩ : Shape).Idx → EReal) :
    (⟨2, ![50000, 128]⟩ : Shape).Idx → EReal :=
  fun i => product x w i * d (ix2 (i 0) 0) + b (ix2 0 (i 1))

/-- `s + (a + b) = (s + a) + b` for arrays of extended reals, entry by entry. -/
theorem add_regroup {s : Shape} {φ : FTy} (S A B : FVec Ideal s φ) : addf S (addf A B) = addf (addf S A) B :=
  funext fun i => by
    rw [addf_apply, addf_apply, addf_apply, addf_apply]
    exact (add_assoc _ _ _).symm

end Cert.LayerSpec

end
-- ==== Proof.Tiles0.lean ====
/-
  Launch 1 of 3: from tiles to whole arrays.

  The launch walks the 50000 rows in 25 tiles of 2000.  At tile `t` the feature window, the reciprocal-degree window and
  both output windows sit at block row `t`; the weight and bias windows stay at block (0, 0).  So what tile `t` writes
  back to each output is rows 2000·t … 2000·t + 1999 of ONE function of the arrays the launch finds: `product x w` for the
  first output, `selfLoop x w d b` for the second.  The 25 tiles cover every row (row `r` is in tile `r / 2000`), hence
  after the launch each output array IS that function.
-/
import proofs.«116558_j9294309228961_2_alg».proof.Proof.Gen.KernelIdeal.Frame
import proofs.«116558_j9294309228961_2_alg».proof.Proof.TileBody
import proofs.«116558_j9294309228961_2_alg».proof.Proof.LayerSpec
import Idealize.ShloMosaic.Lib.Pipeline.Value

set_option maxRecDepth 16384

noncomputable section

namespace Cert.KernelIdeal.Tiles0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.LayerSpec

variable (V : (c : Dev nD) → (b : Ref sig .tc) → Buf (Elt Ideal) ((c : Thread nD τ).loc b))

theorem zero_offsets : (![0, 0] : Fin 2 → Nat) = fun _ => 0 := funext fun a => by fin_cases a <;> rfl

/-- Where each window sits at tile `t`, decided over the 25 tiles. -/
theorem block_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Every block row below 25 is some tile's. -/
theorem tile_of_row : ∀ q : Fin 25, ∃ t : Fin cfg0.N, t.val = q.val :=
  (by decide +kernel : ∀ q : Fin 25, ∃ t : Fin grid0.N, t.val = q.val)

/-- The four arrays the launch reads, as it finds them. -/
abbrev xs (c : Dev nD) : S50000x128.Idx → EReal := V c main_arg0
abbrev ws (c : Dev nD) : S128x128.Idx → EReal := V c main_v29
abbrev bs (c : Dev nD) : S1x128.Idx → EReal := V c main_v32
abbrev ds (c : Dev nD) : S50000x1.Idx → EReal := V c main_v33

/-- Entry `(p, k)` of tile `t` of the features is entry `(2000·t + p, k)` of the array. -/
theorem x_tile (c : Dev nD) (t : Fin cfg0.N) (p : Fin 2000) (k : Fin 128) (r : Fin 50000) (hr : r.val = t.val * 2000 + p.val) :
    iblk0 V c 0 t (ix2 p k) = xs V c (ix2 r k) := by
  obtain ⟨e00, e01, -⟩ := block_rows t
  show V c main_arg0 (((cfg0.win 0).blk t).view.emb (ix2 p k)) = V c main_arg0 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The weight window's one block is the whole matrix. -/
theorem w_tile (c : Dev nD) (t : Fin cfg0.N) (k q : Fin 128) : iblk0 V c 1 t (ix2 k q) = ws V c (ix2 k q) := by
  obtain ⟨-, -, e10, e11, -⟩ := block_rows t
  show V c main_v29 (((cfg0.win 1).blk t).view.emb (ix2 k q)) = V c main_v29 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias window's one block is the whole row. -/
theorem b_tile (c : Dev nD) (t : Fin cfg0.N) (q : Fin 128) : iblk0 V c 2 t (ix2 0 q) = bs V c (ix2 0 q) := by
  obtain ⟨-, -, -, -, e20, e21, -⟩ := block_rows t
  show V c main_v32 (((cfg0.win 2).blk t).view.emb (ix2 0 q)) = V c main_v32 (ix2 0 q)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Entry `p` of tile `t` of the reciprocal degrees is entry `2000·t + p` of the column. -/
theorem d_tile (c : Dev nD) (t : Fin cfg0.N) (p : Fin 2000) (r : Fin 50000) (hr : r.val = t.val * 2000 + p.val) :
    iblk0 V c 3 t (ix2 p 0) = ds V c (ix2 r 0) := by
  obtain ⟨-, -, -, -, -, -, e30, e31, -⟩ := block_rows t
  show V c main_v33 (((cfg0.win 3).blk t).view.emb (ix2 p 0)) = V c main_v33 (ix2 r 0)
  refine congrArg _ (funext fun a => Fin.ext ?_)
  match a with
  | ⟨0, _⟩ => show win0_3.index t (0 : Fin 2) * 2000 + 1 * p.val = r.val; omega
  | ⟨1, _⟩ => show win0_3.index t (1 : Fin 2) * 1 + 1 * 0 = 0; omega

/-- The row of the array that entry `p` of tile `t` is. -/
def rowOf (t : Fin cfg0.N) (p : Fin 2000) : Fin 50000 :=
  ⟨t.val * 2000 + p.val, by have := t.isLt; have hN : cfg0.N = 25 := N_0; have := p.isLt; omega⟩

/-- What tile `t` writes back to the first output: its rows of `product x w`. -/
theorem flushed_product (c : Dev nD) (t : Fin cfg0.N) :
    (dat0 V c).flushed 4 t = ((cfg0.win 4).blk t).view.read (Elt Ideal) (product (xs V c) (ws V c)) := by
  show (cfg0.win 4).cut (grid0.coords t) ((dat0 V c).after 4 t) = _
  rw [after0_4]
  unfold out0_4
  rw [View.canon_unit_zero zero_offsets]
  simp only [View.ld_unit_zero (S := S2000x128) zero_offsets, View.ld_unit_zero (S := S128x128) zero_offsets]
  obtain ⟨-, -, -, -, -, -, -, -, e40, e41, -⟩ := block_rows t
  funext j
  obtain ⟨p, q, rfl⟩ : ∃ (p : Fin 2000) (q : Fin 128), j = ix2 p q := ⟨j 0, j 1, eq_ix2 j⟩
  have hemb : ((cfg0.win 4).blk t).view.emb (ix2 p q) = (ix2 (rowOf t p) q : S50000x128.Idx) := by
    funext a; apply Fin.ext
    match a with
    | ⟨0, _⟩ => show win0_4.index t (0 : Fin 2) * 2000 + 1 * p.val = t.val * 2000 + p.val; omega
    | ⟨1, _⟩ => show win0_4.index t (1 : Fin 2) * 128 + 1 * q.val = q.val; omega
  show k0_pay1 (F := Ideal) (iblk0 V c 0 t) (iblk0 V c 1 t) (ix2 p q) = product (xs V c) (ws V c) (((cfg0.win 4).blk t).view.emb (ix2 p q))
  rw [hemb]
  refine (TileBody.product0 _ _ p q).trans ?_
  unfold product
  refine Finset.sum_congr rfl fun k _ => ?_
  exact congrArg₂ (· * ·) (x_tile V c t p k (rowOf t p) rfl) (w_tile V c t k q)

/-- What tile `t` writes back to the second output: its rows of `selfLoop x w d b`. -/
theorem flushed_selfLoop (c : Dev nD) (t : Fin cfg0.N) :
    (dat0 V c).flushed 5 t = ((cfg0.win 5).blk t).view.read (Elt Ideal) (selfLoop (xs V c) (ws V c) (ds V c) (bs V c)) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S2000x1) zero_offsets, View.ld_unit_zero (S := S1x128) zero_offsets]
  obtain ⟨-, -, -, -, -, -, -, -, -, -, e50, e51⟩ := block_rows t
  funext j
  obtain ⟨p, q, rfl⟩ : ∃ (p : Fin 2000) (q : Fin 128), j = ix2 p q := ⟨j 0, j 1, eq_ix2 j⟩
  have hemb : ((cfg0.win 5).blk t).view.emb (ix2 p q) = (ix2 (rowOf t p) q : S50000x128.Idx) := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay2 (F := Ideal) (iblk0 V c 0 t) (iblk0 V c 1 t) (iblk0 V c 3 t) (iblk0 V c 2 t) (ix2 p q)
    = selfLoop (xs V c) (ws V c) (ds V c) (bs V c) (((cfg0.win 5).blk t).view.emb (ix2 p q))
  rw [hemb]
  refine (TileBody.selfloop0 _ _ _ _ p q).trans ?_
  unfold selfLoop product
  refine congrArg₂ (· + ·) (congrArg₂ (· * ·) (Finset.sum_congr rfl fun k _ => ?_) (d_tile V c t p (rowOf t p) rfl)) (b_tile V c t q)
  exact congrArg₂ (· * ·) (x_tile V c t p k (rowOf t p) rfl) (w_tile V c t k q)

/-- An index of the array lies in tile `t`'s block of output window `4` iff its row is one of the tile's 2000. -/
theorem mem_tile4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v34_0).slice (win0_4.rect t)).set ↔ _
  rw [View.set_slice_whole, Rect.mem_set_unit]
  exact Iff.rfl

theorem mem_tile5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v34_1).slice (win0_5.rect t)).set ↔ _
  rw [View.set_slice_whole, Rect.mem_set_unit]
  exact Iff.rfl

/-- After the launch the first output array is `product x w`. -/
theorem final_product (c : Dev nD) : (dat0 V c).arrAt 4 cfg0.N = product (xs V c) (ws V c) :=
  (dat0 V c).arrAt_eq_of_cover 4 (product (xs V c) (ws V c)) (fun t _ => flushed_product V c t) fun i => by
    have hi0 : (i 0).val < 50000 := (i 0).isLt
    have hi1 : (i 1).val < 128 := (i 1).isLt
    obtain ⟨t, ht⟩ := tile_of_row ⟨(i 0).val / 2000, by omega⟩
    have ht' : t.val = (i 0).val / 2000 := ht
    obtain ⟨-, -, -, -, -, -, -, -, e40, e41, -⟩ := block_rows t
    refine ⟨t, flush0_4 t, ?_⟩
    rw [mem_tile4]
    intro a
    match a with
    | ⟨0, _⟩ => show win0_4.index t (0 : Fin 2) * 2000 ≤ (i 0).val ∧ (i 0).val < win0_4.index t (0 : Fin 2) * 2000 + 2000; omega
    | ⟨1, _⟩ => show win0_4.index t (1 : Fin 2) * 128 ≤ (i 1).val ∧ (i 1).val < win0_4.index t (1 : Fin 2) * 128 + 128; omega

/-- After the launch the second output array is `selfLoop x w d b`. -/
theorem final_selfLoop (c : Dev nD) : (dat0 V c).arrAt 5 cfg0.N = selfLoop (xs V c) (ws V c) (ds V c) (bs V c) :=
  (dat0 V c).arrAt_eq_of_cover 5 (selfLoop (xs V c) (ws V c) (ds V c) (bs V c)) (fun t _ => flushed_selfLoop V c t) fun i => by
    have hi0 : (i 0).val < 50000 := (i 0).isLt
    have hi1 : (i 1).val < 128 := (i 1).isLt
    obtain ⟨t, ht⟩ := tile_of_row ⟨(i 0).val / 2000, by omega⟩
    have ht' : t.val = (i 0).val / 2000 := ht
    obtain ⟨-, -, -, -, -, -, -, -, -, -, e50, e51⟩ := block_rows t
    refine ⟨t, flush0_5 t, ?_⟩
    rw [mem_tile5]
    intro a
    match a with
    | ⟨0, _⟩ => show win0_5.index t (0 : Fin 2) * 2000 ≤ (i 0).val ∧ (i 0).val < win0_5.index t (0 : Fin 2) * 2000 + 2000; omega
    | ⟨1, _⟩ => show win0_5.index t (1 : Fin 2) * 128 ≤ (i 1).val ∧ (i 1).val < win0_5.index t (1 : Fin 2) * 128 + 128; omega

end Cert.KernelIdeal.Tiles0

end
-- ==== Proof.Tiles1.lean ====
/-
  Launch 2 of 3: from tiles to whole arrays.

  The launch walks the 50000 rows in 25 tiles of 2000.  At tile `t` the feature window, the reciprocal-degree window and
  both output windows sit at block row `t`; the weight and bias windows stay at block (0, 0).  So what tile `t` writes
  back to each output is rows 2000·t … 2000·t + 1999 of ONE function of the arrays the launch finds: `product x w` for the
  first output, `selfLoop x w d b` for the second.  The 25 tiles cover every row (row `r` is in tile `r / 2000`), hence
  after the launch each output array IS that function.
-/
import proofs.«116558_j9294309228961_2_alg».proof.Proof.Gen.KernelIdeal.Frame
import proofs.«116558_j9294309228961_2_alg».proof.Proof.TileBody
import proofs.«116558_j9294309228961_2_alg».proof.Proof.LayerSpec
import Idealize.ShloMosaic.Lib.Pipeline.Value

set_option maxRecDepth 16384

noncomputable section

namespace Cert.KernelIdeal.Tiles1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.LayerSpec

variable (V : (c : Dev nD) → (b : Ref sig .tc) → Buf (Elt Ideal) ((c : Thread nD τ).loc b))

theorem zero_offsets : (![0, 0] : Fin 2 → Nat) = fun _ => 0 := funext fun a => by fin_cases a <;> rfl

/-- Where each window sits at tile `t`, decided over the 25 tiles. -/
theorem block_rows : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Every block row below 25 is some tile's. -/
theorem tile_of_row : ∀ q : Fin 25, ∃ t : Fin cfg1.N, t.val = q.val :=
  (by decide +kernel : ∀ q : Fin 25, ∃ t : Fin grid1.N, t.val = q.val)

/-- The four arrays the launch reads, as it finds them. -/
abbrev xs (c : Dev nD) : S50000x128.Idx → EReal := V c main_v49
abbrev ws (c : Dev nD) : S128x128.Idx → EReal := V c main_v51
abbrev bs (c : Dev nD) : S1x128.Idx → EReal := V c main_v54
abbrev ds (c : Dev nD) : S50000x1.Idx → EReal := V c main_v55

/-- Entry `(p, k)` of tile `t` of the features is entry `(2000·t + p, k)` of the array. -/
theorem x_tile (c : Dev nD) (t : Fin cfg1.N) (p : Fin 2000) (k : Fin 128) (r : Fin 50000) (hr : r.val = t.val * 2000 + p.val) :
    iblk1 V c 0 t (ix2 p k) = xs V c (ix2 r k) := by
  obtain ⟨e00, e01, -⟩ := block_rows t
  show V c main_v49 (((cfg1.win 0).blk t).view.emb (ix2 p k)) = V c main_v49 (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- The weight window's one block is the whole matrix. -/
theorem w_tile (c : Dev nD) (t : Fin cfg1.N) (k q : Fin 128) : iblk1 V c 1 t (ix2 k q) = ws V c (ix2 k q) := by
  obtain ⟨-, -, e10, e11, -⟩ := block_rows t
  show V c main_v51 (((cfg1.win 1).blk t).view.emb (ix2 k q)) = V c main_v51 (ix2 k q)
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias window's one block is the whole row. -/
theorem b_tile (c : Dev nD) (t : Fin cfg1.N) (q : Fin 128) : iblk1 V c 2 t (ix2 0 q) = bs V c (ix2 0 q) := by
  obtain ⟨-, -, -, -, e20, e21, -⟩ := block_rows t
  show V c main_v54 (((cfg1.win 2).blk t).view.emb (ix2 0 q)) = V c main_v54 (ix2 0 q)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Entry `p` of tile `t` of the reciprocal degrees is entry `2000·t + p` of the column. -/
theorem d_tile (c : Dev nD) (t : Fin cfg1.N) (p : Fin 2000) (r : Fin 50000) (hr : r.val = t.val * 2000 + p.val) :
    iblk1 V c 3 t (ix2 p 0) = ds V c (ix2 r 0) := by
  obtain ⟨-, -, -, -, -, -, e30, e31, -⟩ := block_rows t
  show V c main_v55 (((cfg1.win 3).blk t).view.emb (ix2 p 0)) = V c main_v55 (ix2 r 0)
  refine congrArg _ (funext fun a => Fin.ext ?_)
  match a with
  | ⟨0, _⟩ => show win1_3.index t (0 : Fin 2) * 2000 + 1 * p.val = r.val; omega
  | ⟨1, _⟩ => show win1_3.index t (1 : Fin 2) * 1 + 1 * 0 = 0; omega

/-- The row of the array that entry `p` of tile `t` is. -/
def rowOf (t : Fin cfg1.N) (p : Fin 2000) : Fin 50000 :=
  ⟨t.val * 2000 + p.val, by have := t.isLt; have hN : cfg1.N = 25 := N_1; have := p.isLt; omega⟩

/-- What tile `t` writes back to the first output: its rows of `product x w`. -/
theorem flushed_product (c : Dev nD) (t : Fin cfg1.N) :
    (dat1 V c).flushed 4 t = ((cfg1.win 4).blk t).view.read (Elt Ideal) (product (xs V c) (ws V c)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S128x128) zero_offsets]
  obtain ⟨-, -, -, -, -, -, -, -, e40, e41, -⟩ := block_rows t
  funext j
  obtain ⟨p, q, rfl⟩ : ∃ (p : Fin 2000) (q : Fin 128), j = ix2 p q := ⟨j 0, j 1, eq_ix2 j⟩
  have hemb : ((cfg1.win 4).blk t).view.emb (ix2 p q) = (ix2 (rowOf t p) q : S50000x128.Idx) := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  show k1_pay1 (F := Ideal) (iblk1 V c 0 t) (iblk1 V c 1 t) (ix2 p q) = product (xs V c) (ws V c) (((cfg1.win 4).blk t).view.emb (ix2 p q))
  rw [hemb]
  refine (TileBody.product1 _ _ p q).trans ?_
  unfold product
  refine Finset.sum_congr rfl fun k _ => ?_
  exact congrArg₂ (· * ·) (x_tile V c t p k (rowOf t p) rfl) (w_tile V c t k q)

/-- What tile `t` writes back to the second output: its rows of `selfLoop x w d b`. -/
theorem flushed_selfLoop (c : Dev nD) (t : Fin cfg1.N) :
    (dat1 V c).flushed 5 t = ((cfg1.win 5).blk t).view.read (Elt Ideal) (selfLoop (xs V c) (ws V c) (ds V c) (bs V c)) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x128) zero_offsets,
    View.ld_unit_zero (S := S2000x1) zero_offsets, View.ld_unit_zero (S := S1x128) zero_offsets]
  obtain ⟨-, -, -, -, -, -, -, -, -, -, e50, e51⟩ := block_rows t
  funext j
  obtain ⟨p, q, rfl⟩ : ∃ (p : Fin 2000) (q : Fin 128), j = ix2 p q := ⟨j 0, j 1, eq_ix2 j⟩
  have hemb : ((cfg1.win 5).blk t).view.emb (ix2 p q) = (ix2 (rowOf t p) q : S50000x128.Idx) := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show k1_pay2 (F := Ideal) (iblk1 V c 0 t) (iblk1 V c 1 t) (iblk1 V c 3 t) (iblk1 V c 2 t) (ix2 p q)
    = selfLoop (xs V c) (ws V c) (ds V c) (bs V c) (((cfg1.win 5).blk t).view.emb (ix2 p q))
  rw [hemb]
  refine (TileBody.selfloop1 _ _ _ _ p q).trans ?_
  unfold selfLoop product
  refine congrArg₂ (· + ·) (congrArg₂ (· * ·) (Finset.sum_congr rfl fun k _ => ?_) (d_tile V c t p (rowOf t p) rfl)) (b_tile V c t q)
  exact congrArg₂ (· * ·) (x_tile V c t p k (rowOf t p) rfl) (w_tile V c t k q)

/-- An index of the array lies in tile `t`'s block of output window `4` iff its row is one of the tile's 2000. -/
theorem mem_tile4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v56_0).slice (win1_4.rect t)).set ↔ _
  rw [View.set_slice_whole, Rect.mem_set_unit]
  exact Iff.rfl

theorem mem_tile5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v56_1).slice (win1_5.rect t)).set ↔ _
  rw [View.set_slice_whole, Rect.mem_set_unit]
  exact Iff.rfl

/-- After the launch the first output array is `product x w`. -/
theorem final_product (c : Dev nD) : (dat1 V c).arrAt 4 cfg1.N = product (xs V c) (ws V c) :=
  (dat1 V c).arrAt_eq_of_cover 4 (product (xs V c) (ws V c)) (fun t _ => flushed_product V c t) fun i => by
    have hi0 : (i 0).val < 50000 := (i 0).isLt
    have hi1 : (i 1).val < 128 := (i 1).isLt
    obtain ⟨t, ht⟩ := tile_of_row ⟨(i 0).val / 2000, by omega⟩
    have ht' : t.val = (i 0).val / 2000 := ht
    obtain ⟨-, -, -, -, -, -, -, -, e40, e41, -⟩ := block_rows t
    refine ⟨t, flush1_4 t, ?_⟩
    rw [mem_tile4]
    intro a
    match a with
    | ⟨0, _⟩ => show win1_4.index t (0 : Fin 2) * 2000 ≤ (i 0).val ∧ (i 0).val < win1_4.index t (0 : Fin 2) * 2000 + 2000; omega
    | ⟨1, _⟩ => show win1_4.index t (1 : Fin 2) * 128 ≤ (i 1).val ∧ (i 1).val < win1_4.index t (1 : Fin 2) * 128 + 128; omega

/-- After the launch the second output array is `selfLoop x w d b`. -/
theorem final_selfLoop (c : Dev nD) : (dat1 V c).arrAt 5 cfg1.N = selfLoop (xs V c) (ws V c) (ds V c) (bs V c) :=
  (dat1 V c).arrAt_eq_of_cover 5 (selfLoop (xs V c) (ws V c) (ds V c) (bs V c)) (fun t _ => flushed_selfLoop V c t) fun i => by
    have hi0 : (i 0).val < 50000 := (i 0).isLt
    have hi1 : (i 1).val < 128 := (i 1).isLt
    obtain ⟨t, ht⟩ := tile_of_row ⟨(i 0).val / 2000, by omega⟩
    have ht' : t.val = (i 0).val / 2000 := ht
    obtain ⟨-, -, -, -, -, -, -, -, -, -, e50, e51⟩ := block_rows t
    refine ⟨t, flush1_5 t, ?_⟩
    rw [mem_tile5]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 128 ≤ (i 1).val ∧ (i 1).val < win1_5.index t (1 : Fin 2) * 128 + 128; omega

end Cert.KernelIdeal.Tiles1

end
-- ==== Proof.Tiles2.lean ====
/-
  Launch 3 of 3: from tiles to whole arrays.

  The launch walks the 50000 rows in 25 tiles of 2000.  At tile `t` the feature window, the reciprocal-degree window and
  both output windows sit at block row `t`; the weight and bias windows stay at block (0, 0).  So what tile `t` writes
  back to each output is rows 2000·t … 2000·t + 1999 of ONE function of the arrays the launch finds: `product x w` for the
  first output, `selfLoop x w d b` for the second.  The 25 tiles cover every row (row `r` is in tile `r / 2000`), hence
  after the launch each output array IS that function.
-/
import proofs.«116558_j9294309228961_2_alg».proof.Proof.Gen.KernelIdeal.Frame
import proofs.«116558_j9294309228961_2_alg».proof.Proof.TileBody
import proofs.«116558_j9294309228961_2_alg».proof.Proof.LayerSpec
import Idealize.ShloMosaic.Lib.Pipeline.Value

set_option maxRecDepth 16384

noncomputable section

namespace Cert.KernelIdeal.Tiles2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.LayerSpec

variable (V : (c : Dev nD) → (b : Ref sig .tc) → Buf (Elt Ideal) ((c : Thread nD τ).loc b))

theorem zero_offsets : (![0, 0] : Fin 2 → Nat) = fun _ => 0 := funext fun a => by fin_cases a <;> rfl

/-- Where each window sits at tile `t`, decided over the 25 tiles. -/
theorem block_rows : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Every block row below 25 is some tile's. -/
theorem tile_of_row : ∀ q : Fin 25, ∃ t : Fin cfg2.N, t.val = q.val :=
  (by decide +kernel : ∀ q : Fin 25, ∃ t : Fin grid2.N, t.val = q.val)

/-- The four arrays the launch reads, as it finds them. -/
abbrev xs (c : Dev nD) : S50000x128.Idx → EReal := V c main_v71
abbrev ws (c : Dev nD) : S128x128.Idx → EReal := V c main_v73
abbrev bs (c : Dev nD) : S1x128.Idx → EReal := V c main_v76
abbrev ds (c : Dev nD) : S50000x1.Idx → EReal := V c main_v77

/-- Entry `(p, k)` of tile `t` of the features is entry `(2000·t + p, k)` of the array. -/
theorem x_tile (c : Dev nD) (t : Fin cfg2.N) (p : Fin 2000) (k : Fin 128) (r : Fin 50000) (hr : r.val = t.val * 2000 + p.val) :
    iblk2 V c 0 t (ix2 p k) = xs V c (ix2 r k) := by
  obtain ⟨e00, e01, -⟩ := block_rows t
  show V c main_v71 (((cfg2.win 0).blk t).view.emb (ix2 p k)) = V c main_v71 (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- The weight window's one block is the whole matrix. -/
theorem w_tile (c : Dev nD) (t : Fin cfg2.N) (k q : Fin 128) : iblk2 V c 1 t (ix2 k q) = ws V c (ix2 k q) := by
  obtain ⟨-, -, e10, e11, -⟩ := block_rows t
  show V c main_v73 (((cfg2.win 1).blk t).view.emb (ix2 k q)) = V c main_v73 (ix2 k q)
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The bias window's one block is the whole row. -/
theorem b_tile (c : Dev nD) (t : Fin cfg2.N) (q : Fin 128) : iblk2 V c 2 t (ix2 0 q) = bs V c (ix2 0 q) := by
  obtain ⟨-, -, -, -, e20, e21, -⟩ := block_rows t
  show V c main_v76 (((cfg2.win 2).blk t).view.emb (ix2 0 q)) = V c main_v76 (ix2 0 q)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- Entry `p` of tile `t` of the reciprocal degrees is entry `2000·t + p` of the column. -/
theorem d_tile (c : Dev nD) (t : Fin cfg2.N) (p : Fin 2000) (r : Fin 50000) (hr : r.val = t.val * 2000 + p.val) :
    iblk2 V c 3 t (ix2 p 0) = ds V c (ix2 r 0) := by
  obtain ⟨-, -, -, -, -, -, e30, e31, -⟩ := block_rows t
  show V c main_v77 (((cfg2.win 3).blk t).view.emb (ix2 p 0)) = V c main_v77 (ix2 r 0)
  refine congrArg _ (funext fun a => Fin.ext ?_)
  match a with
  | ⟨0, _⟩ => show win2_3.index t (0 : Fin 2) * 2000 + 1 * p.val = r.val; omega
  | ⟨1, _⟩ => show win2_3.index t (1 : Fin 2) * 1 + 1 * 0 = 0; omega

/-- The row of the array that entry `p` of tile `t` is. -/
def rowOf (t : Fin cfg2.N) (p : Fin 2000) : Fin 50000 :=
  ⟨t.val * 2000 + p.val, by have := t.isLt; have hN : cfg2.N = 25 := N_2; have := p.isLt; omega⟩

/-- What tile `t` writes back to the first output: its rows of `product x w`. -/
theorem flushed_product (c : Dev nD) (t : Fin cfg2.N) :
    (dat2 V c).flushed 4 t = ((cfg2.win 4).blk t).view.read (Elt Ideal) (product (xs V c) (ws V c)) := by
  show (cfg2.win 4).cut (grid2.coords t) ((dat2 V c).after 4 t) = _
  rw [after2_4]
  unfold out2_4
  rw [View.canon_unit_zero zero_offsets]
  simp only [View.ld_unit_zero (S := S2000x128) zero_offsets, View.ld_unit_zero (S := S128x128) zero_offsets]
  obtain ⟨-, -, -, -, -, -, -, -, e40, e41, -⟩ := block_rows t
  funext j
  obtain ⟨p, q, rfl⟩ : ∃ (p : Fin 2000) (q : Fin 128), j = ix2 p q := ⟨j 0, j 1, eq_ix2 j⟩
  have hemb : ((cfg2.win 4).blk t).view.emb (ix2 p q) = (ix2 (rowOf t p) q : S50000x128.Idx) := by
    funext a; apply Fin.ext
    match a with
    | ⟨0, _⟩ => show win2_4.index t (0 : Fin 2) * 2000 + 1 * p.val = t.val * 2000 + p.val; omega
    | ⟨1, _⟩ => show win2_4.index t (1 : Fin 2) * 128 + 1 * q.val = q.val; omega
  show k2_pay1 (F := Ideal) (iblk2 V c 0 t) (iblk2 V c 1 t) (ix2 p q) = product (xs V c) (ws V c) (((cfg2.win 4).blk t).view.emb (ix2 p q))
  rw [hemb]
  refine (TileBody.product2 _ _ p q).trans ?_
  unfold product
  refine Finset.sum_congr rfl fun k _ => ?_
  exact congrArg₂ (· * ·) (x_tile V c t p k (rowOf t p) rfl) (w_tile V c t k q)

/-- What tile `t` writes back to the second output: its rows of `selfLoop x w d b`. -/
theorem flushed_selfLoop (c : Dev nD) (t : Fin cfg2.N) :
    (dat2 V c).flushed 5 t = ((cfg2.win 5).blk t).view.read (Elt Ideal) (selfLoop (xs V c) (ws V c) (ds V c) (bs V c)) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S128x128) zero_offsets,
    View.ld_unit_zero (S := S2000x1) zero_offsets, View.ld_unit_zero (S := S1x128) zero_offsets]
  obtain ⟨-, -, -, -, -, -, -, -, -, -, e50, e51⟩ := block_rows t
  funext j
  obtain ⟨p, q, rfl⟩ : ∃ (p : Fin 2000) (q : Fin 128), j = ix2 p q := ⟨j 0, j 1, eq_ix2 j⟩
  have hemb : ((cfg2.win 5).blk t).view.emb (ix2 p q) = (ix2 (rowOf t p) q : S50000x128.Idx) := by
    funext a; apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show k2_pay2 (F := Ideal) (iblk2 V c 0 t) (iblk2 V c 1 t) (iblk2 V c 3 t) (iblk2 V c 2 t) (ix2 p q)
    = selfLoop (xs V c) (ws V c) (ds V c) (bs V c) (((cfg2.win 5).blk t).view.emb (ix2 p q))
  rw [hemb]
  refine (TileBody.selfloop2 _ _ _ _ p q).trans ?_
  unfold selfLoop product
  refine congrArg₂ (· + ·) (congrArg₂ (· * ·) (Finset.sum_congr rfl fun k _ => ?_) (d_tile V c t p (rowOf t p) rfl)) (b_tile V c t q)
  exact congrArg₂ (· * ·) (x_tile V c t p k (rowOf t p) rfl) (w_tile V c t k q)

/-- An index of the array lies in tile `t`'s block of output window `4` iff its row is one of the tile's 2000. -/
theorem mem_tile4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v78_0).slice (win2_4.rect t)).set ↔ _
  rw [View.set_slice_whole, Rect.mem_set_unit]
  exact Iff.rfl

theorem mem_tile5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v78_1).slice (win2_5.rect t)).set ↔ _
  rw [View.set_slice_whole, Rect.mem_set_unit]
  exact Iff.rfl

/-- After the launch the first output array is `product x w`. -/
theorem final_product (c : Dev nD) : (dat2 V c).arrAt 4 cfg2.N = product (xs V c) (ws V c) :=
  (dat2 V c).arrAt_eq_of_cover 4 (product (xs V c) (ws V c)) (fun t _ => flushed_product V c t) fun i => by
    have hi0 : (i 0).val < 50000 := (i 0).isLt
    have hi1 : (i 1).val < 128 := (i 1).isLt
    obtain ⟨t, ht⟩ := tile_of_row ⟨(i 0).val / 2000, by omega⟩
    have ht' : t.val = (i 0).val / 2000 := ht
    obtain ⟨-, -, -, -, -, -, -, -, e40, e41, -⟩ := block_rows t
    refine ⟨t, flush2_4 t, ?_⟩
    rw [mem_tile4]
    intro a
    match a with
    | ⟨0, _⟩ => show win2_4.index t (0 : Fin 2) * 2000 ≤ (i 0).val ∧ (i 0).val < win2_4.index t (0 : Fin 2) * 2000 + 2000; omega
    | ⟨1, _⟩ => show win2_4.index t (1 : Fin 2) * 128 ≤ (i 1).val ∧ (i 1).val < win2_4.index t (1 : Fin 2) * 128 + 128; omega

/-- After the launch the second output array is `selfLoop x w d b`. -/
theorem final_selfLoop (c : Dev nD) : (dat2 V c).arrAt 5 cfg2.N = selfLoop (xs V c) (ws V c) (ds V c) (bs V c) :=
  (dat2 V c).arrAt_eq_of_cover 5 (selfLoop (xs V c) (ws V c) (ds V c) (bs V c)) (fun t _ => flushed_selfLoop V c t) fun i => by
    have hi0 : (i 0).val < 50000 := (i 0).isLt
    have hi1 : (i 1).val < 128 := (i 1).isLt
    obtain ⟨t, ht⟩ := tile_of_row ⟨(i 0).val / 2000, by omega⟩
    have ht' : t.val = (i 0).val / 2000 := ht
    obtain ⟨-, -, -, -, -, -, -, -, -, -, e50, e51⟩ := block_rows t
    refine ⟨t, flush2_5 t, ?_⟩
    rw [mem_tile5]
    intro a
    match a with
    | ⟨0, _⟩ => show win2_5.index t (0 : Fin 2) * 2000 ≤ (i 0).val ∧ (i 0).val < win2_5.index t (0 : Fin 2) * 2000 + 2000; omega
    | ⟨1, _⟩ => show win2_5.index t (1 : Fin 2) * 128 ≤ (i 1).val ∧ (i 1).val < win2_5.index t (1 : Fin 2) * 128 + 128; omega

end Cert.KernelIdeal.Tiles2

end
-- ==== Proof.LayerBridge.lean ====
/-
  The reference's dense steps are the layer specification.

  * The reference's `dot_general` of the features with a weight matrix, contracting the feature axis, is `product x w`:
    entry `(r, q)` is `∑ k, x (r, k) · w (k, q)`.
  * The reference scales `x · w` by the reciprocal degrees spread along each row and then adds the bias spread down each
    column; the kernel's second output reads the same two vectors as a 50000 × 1 column and a 1 × 128 row.  A reshaped
    column at `(r, 0)` and the twice-broadcast vector at `(r, q)` are both entry `r` of the vector (likewise the bias at
    `q`), so `selfLoop x w d b = x·w ⊙ spread d + spread b`.
-/
import proofs.«116558_j9294309228961_2_alg».proof.Proof.Gen.KernelIdeal
import proofs.«116558_j9294309228961_2_alg».proof.Proof.Gen.ReferenceIdeal.Read
import proofs.«116558_j9294309228961_2_alg».proof.Proof.LayerSpec
import Idealize.ShloMosaic.Lib.Pipeline.Value
import Idealize.ShloMosaic.PureOps.Ideal.Laws

noncomputable section

namespace Cert.LayerBridge

open Idealize.ShloMosaic Idealize.ShloMosaic.ValueIdx Cert.LayerSpec
open Cert.ReferenceIdeal Cert.ReferenceIdeal.Gen Cert.ReferenceIdeal.Read

/-- The reference's `dot_general` is the entrywise sum over the contracted axis. -/
theorem dot_eq (x : FVec Ideal S50000x128 .f32) (w : FVec Ideal S128x128 .f32) :
    Host.dotGeneral dot_S50000x128_S128x128_S50000x128_1_0_0_1_n_n none x w = product x w := by
  funext i
  simp only [Host.dotGeneral]
  rw [Ideal.dotGeneral_apply, ← Equiv.sum_comp (ValueIdx.contrEquiv1 dot_S50000x128_S128x128_S50000x128_1_0_0_1_n_n 128 rfl rfl).symm]
  unfold product
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (i 0) k :=
    funext fun a => Fin.ext (by
      match a with
      | ⟨0, _⟩ => exact lhs_main_v32_0 _ _
      | ⟨1, _⟩ => exact (lhs_main_v32_1 _ _).trans hk)
  have er : dot_S50000x128_S128x128_S50000x128_1_0_0_1_n_n.rhsIdx i ((ValueIdx.contrEquiv1 dot_S50000x128_S128x128_S50000x128_1_0_0_1_n_n 128 rfl rfl).symm k) = ix2 k (i 1) :=
    funext fun a => Fin.ext (by
      match a with
      | ⟨0, _⟩ => exact (rhs_main_v32_0 _ _).trans hk
      | ⟨1, _⟩ => exact rhs_main_v32_1 _ _)
  rw [el, er]
  rfl

/-- A vector of 50000 entries reshaped to a column, at `(r, 0)`. -/
theorem column_at (d : FVec Ideal Cert.KernelIdeal.S50000 .f32) (r : Fin 50000) :
    shapeCast Cert.KernelIdeal.S50000x1 d Cert.KernelIdeal.Gen.shapeCasts_S50000_S50000x1 (ix2 r 0) = d (ix1 r) :=
  shapeCast_apply d Cert.KernelIdeal.Gen.shapeCasts_S50000_S50000x1 (ix2 r 0) (ix1 r) (by
    rw [Shape.rowMajor_val_one, Shape.rowMajor_val_two]
    show r.val = r.val * 1 + 0
    omega)

/-- A vector of 128 entries reshaped to a row, at `(0, q)`. -/
theorem row_at (b : FVec Ideal Cert.KernelIdeal.S128 .f32) (q : Fin 128) :
    shapeCast Cert.KernelIdeal.S1x128 b Cert.KernelIdeal.Gen.shapeCasts_S128_S1x128 (ix2 0 q) = b (ix1 q) :=
  shapeCast_apply b Cert.KernelIdeal.Gen.shapeCasts_S128_S1x128 (ix2 0 q) (ix1 q) (by
    rw [Shape.rowMajor_val_one, Shape.rowMajor_val_two]
    show q.val = 0 * 128 + q.val
    omega)

/-- The reciprocal degrees spread along the rows, at `(r, q)`. -/
theorem spread_rows_at (d : FVec Ideal S50000 .f32) (r : Fin 50000) (q : Fin 128) :
    broadcastInDim S50000x128 ![0, 1] bcast_S50000x1_S50000x128_0_1 (broadcastInDim S50000x1 ![0] bcast_S50000_S50000x1_0 d) (ix2 r q) = d (ix1 r) :=
  (broadcastInDim_apply _ bcast_S50000x1_S50000x128_0_1 _ (ix2 r q) (ix2 r 0) (fun a => match a with
    | ⟨0, _⟩ => by show r.val = if (50000 : Nat) = 1 then 0 else r.val; rw [if_neg (by decide)]
    | ⟨1, _⟩ => by show 0 = if (1 : Nat) = 1 then 0 else q.val; rw [if_pos rfl])).trans
  (broadcastInDim_apply _ bcast_S50000_S50000x1_0 d (ix2 r 0) (ix1 r) (fun a => match a with
    | ⟨0, _⟩ => by show r.val = if (50000 : Nat) = 1 then 0 else r.val; rw [if_neg (by decide)]))

/-- The bias spread down the columns, at `(r, q)`. -/
theorem spread_cols_at (b : FVec Ideal S128 .f32) (r : Fin 50000) (q : Fin 128) :
    broadcastInDim S50000x128 ![0, 1] bcast_S1x128_S50000x128_0_1 (broadcastInDim S1x128 ![1] bcast_S128_S1x128_1 b) (ix2 r q) = b (ix1 q) :=
  (broadcastInDim_apply _ bcast_S1x128_S50000x128_0_1 _ (ix2 r q) (ix2 0 q) (fun a => match a with
    | ⟨0, _⟩ => by show 0 = if (1 : Nat) = 1 then 0 else r.val; rw [if_pos rfl]
    | ⟨1, _⟩ => by show q.val = if (128 : Nat) = 1 then 0 else q.val; rw [if_neg (by decide)])).trans
  (broadcastInDim_apply _ bcast_S128_S1x128_1 b (ix2 0 q) (ix1 q) (fun a => match a with
    | ⟨0, _⟩ => by show q.val = if (128 : Nat) = 1 then 0 else q.val; rw [if_neg (by decide)]))

/-- The kernel's second output is the reference's "scale by the reciprocal degrees, then add the bias". -/
theorem selfLoop_eq (x : FVec Ideal S50000x128 .f32) (w : FVec Ideal S128x128 .f32) (d : FVec Ideal S50000 .f32) (b : FVec Ideal S128 .f32) :
    selfLoop x w (shapeCast Cert.KernelIdeal.S50000x1 d Cert.KernelIdeal.Gen.shapeCasts_S50000_S50000x1)
        (shapeCast Cert.KernelIdeal.S1x128 b Cert.KernelIdeal.Gen.shapeCasts_S128_S1x128)
      = addf (mulf (product x w) (broadcastInDim S50000x128 ![0, 1] bcast_S50000x1_S50000x128_0_1 (broadcastInDim S50000x1 ![0] bcast_S50000_S50000x1_0 d)))
          (broadcastInDim S50000x128 ![0, 1] bcast_S1x128_S50000x128_0_1 (broadcastInDim S1x128 ![1] bcast_S128_S1x128_1 b)) := by
  funext i
  obtain ⟨r, q, rfl⟩ : ∃ (r : Fin 50000) (q : Fin 128), i = ix2 r q := ⟨i 0, i 1, eq_ix2 i⟩
  rw [addf_apply, mulf_apply, spread_rows_at, spread_cols_at]
  unfold selfLoop
  show product x w (ix2 r q) * shapeCast Cert.KernelIdeal.S50000x1 d Cert.KernelIdeal.Gen.shapeCasts_S50000_S50000x1 (ix2 r 0)
      + shapeCast Cert.KernelIdeal.S1x128 b Cert.KernelIdeal.Gen.shapeCasts_S128_S1x128 (ix2 0 q) = _
  rw [column_at, row_at]

/-- One layer's last sum: the kernel's `messages + (self-loop + bias)` is the reference's `(messages + x·w ⊙ spread d) +
    spread b`, whatever the messages are. -/
theorem layer_sum (M x : FVec Ideal S50000x128 .f32) (w : FVec Ideal S128x128 .f32) (d : FVec Ideal S50000 .f32) (b : FVec Ideal S128 .f32) :
    addf M (selfLoop x w (shapeCast Cert.KernelIdeal.S50000x1 d Cert.KernelIdeal.Gen.shapeCasts_S50000_S50000x1)
        (shapeCast Cert.KernelIdeal.S1x128 b Cert.KernelIdeal.Gen.shapeCasts_S128_S1x128))
      = addf (addf M (mulf (Host.dotGeneral dot_S50000x128_S128x128_S50000x128_1_0_0_1_n_n none x w)
            (broadcastInDim S50000x128 ![0, 1] bcast_S50000x1_S50000x128_0_1 (broadcastInDim S50000x1 ![0] bcast_S50000_S50000x1_0 d))))
          (broadcastInDim S50000x128 ![0, 1] bcast_S1x128_S50000x128_0_1 (broadcastInDim S1x128 ![1] bcast_S128_S1x128_1 b)) := by
  rw [selfLoop_eq, add_regroup, dot_eq]

end Cert.LayerBridge

end
-- ==== Proof.Stages.lean ====
/-
  The kernel's buffers, boundary by boundary, against the reference's stages.

  The kernel's @main and the reference's @main compute the graph quantities the same way, operation for operation:
  the sources and destinations of the edges, the degrees (a scatter-add of ones, plus one), the per-edge coefficient
  `deg[src]^(-1/2) · deg[dst]^(-1/2)` and the reciprocal degrees.  None of these buffers is written again, so at every
  later boundary they still hold the reference's values of the same name.

  Per layer the kernel then differs from the reference in two places only: the linear transform `x · w` and the
  self-loop term come out of a tiled launch (they are `product` and `selfLoop` of what the launch reads), and the
  final sum is grouped `messages + (self-loop + bias)` instead of `(messages + self-loop) + bias`.  With the
  reference's `dot_general` read as `product` and the sum regrouped, the layer's output (after the rectifier, for the
  first two layers) is the reference's stage of the same role, and so by induction along the three layers the
  returned array is the reference's result.
-/
import proofs.«116558_j9294309228961_2_alg».proof.Proof.Gen.KernelIdeal.Frame
import proofs.«116558_j9294309228961_2_alg».proof.Proof.Gen.ReferenceIdeal.Read
import proofs.«116558_j9294309228961_2_alg».proof.Proof.Tiles0
import proofs.«116558_j9294309228961_2_alg».proof.Proof.Tiles1
import proofs.«116558_j9294309228961_2_alg».proof.Proof.Tiles2
import proofs.«116558_j9294309228961_2_alg».proof.Proof.LayerBridge
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Cert.LayerSpec Cert.ReferenceIdeal.Read

variable (m : (ℓ : Loc nD τ sig) → Buf (Elt Ideal) ℓ) (ρ : Dev nD → PrngReg)

/-- The launch contents of the arguments the result depends on: node features, edge index, weights, biases. -/
abbrev a0 (c : Dev nD) : (⟨Cert.ReferenceIdeal.S50000x128, .f32⟩ : BufTy).Contents (Elt Ideal) := m ((c : Thread nD τ).loc main_arg0)
abbrev a2 (c : Dev nD) : (⟨Cert.ReferenceIdeal.S2x800000, .i32⟩ : BufTy).Contents (Elt Ideal) := m ((c : Thread nD τ).loc main_arg2)
abbrev a3 (c : Dev nD) : (⟨Cert.ReferenceIdeal.S3x128x128, .f32⟩ : BufTy).Contents (Elt Ideal) := m ((c : Thread nD τ).loc main_arg3)
abbrev a4 (c : Dev nD) : (⟨Cert.ReferenceIdeal.S3x128, .f32⟩ : BufTy).Contents (Elt Ideal) := m ((c : Thread nD τ).loc main_arg4)

/-! ## Before the first launch -/

theorem W1_v1 (c : Dev nD) : W1 m ρ c (Proc.devRef .tc main_v1) = val_main_v1 (F := Ideal) (a2 m c) := by
  show StableHlo.after hostOps0 (W0 m ρ c) (Proc.devRef .tc main_v1) = _
  after_results_simp <;> rfl
theorem W1_v3 (c : Dev nD) : W1 m ρ c (Proc.devRef .tc main_v3) = val_main_v3 (F := Ideal) (a2 m c) := by
  show StableHlo.after hostOps0 (W0 m ρ c) (Proc.devRef .tc main_v3) = _
  after_results_simp <;> rfl
theorem W1_v25 (c : Dev nD) : W1 m ρ c (Proc.devRef .tc main_v25) = val_main_v25 (F := Ideal) (a2 m c) := by
  show StableHlo.after hostOps0 (W0 m ρ c) (Proc.devRef .tc main_v25) = _
  after_results_simp <;> rfl
theorem W1_v27 (c : Dev nD) : W1 m ρ c (Proc.devRef .tc main_v27) = val_main_v27 (F := Ideal) (a2 m c) := by
  show StableHlo.after hostOps0 (W0 m ρ c) (Proc.devRef .tc main_v27) = _
  after_results_simp <;> rfl
theorem W1_arg3 (c : Dev nD) : W1 m ρ c (Proc.devRef .tc main_arg3) = a3 m c := by
  show StableHlo.after hostOps0 (W0 m ρ c) (Proc.devRef .tc main_arg3) = _
  after_results_simp <;> rfl
theorem W1_arg4 (c : Dev nD) : W1 m ρ c (Proc.devRef .tc main_arg4) = a4 m c := by
  show StableHlo.after hostOps0 (W0 m ρ c) (Proc.devRef .tc main_arg4) = _
  after_results_simp <;> rfl
theorem W1_arg0 (c : Dev nD) : W1 m ρ c (Proc.devRef .tc main_arg0) = a0 m c := by
  show StableHlo.after hostOps0 (W0 m ρ c) (Proc.devRef .tc main_arg0) = _
  after_results_simp <;> rfl
theorem W1_v29 (c : Dev nD) : W1 m ρ c (Proc.devRef .tc main_v29) = val_main_v29 (F := Ideal) (a3 m c) := by
  show StableHlo.after hostOps0 (W0 m ρ c) (Proc.devRef .tc main_v29) = _
  after_results_simp <;> rfl
theorem W1_v32 (c : Dev nD) : W1 m ρ c (Proc.devRef .tc main_v32) = shapeCast S1x128 (val_main_v31 (F := Ideal) (a4 m c)) shapeCasts_S128_S1x128 := by
  show StableHlo.after hostOps0 (W0 m ρ c) (Proc.devRef .tc main_v32) = _
  after_results_simp <;> rfl
theorem W1_v33 (c : Dev nD) : W1 m ρ c (Proc.devRef .tc main_v33) = shapeCast S50000x1 (val_main_v27 (F := Ideal) (a2 m c)) shapeCasts_S50000_S50000x1 := by
  show StableHlo.after hostOps0 (W0 m ρ c) (Proc.devRef .tc main_v33) = _
  after_results_simp <;> rfl

/-! ## After launch 1 -/

theorem W2_v1 (c : Dev nD) : W2 m ρ c (Proc.devRef .tc main_v1) = val_main_v1 (F := Ideal) (a2 m c) := (W2_of_ne m ρ c main_v1 (by decide)).trans (W1_v1 m ρ c)
theorem W2_v3 (c : Dev nD) : W2 m ρ c (Proc.devRef .tc main_v3) = val_main_v3 (F := Ideal) (a2 m c) := (W2_of_ne m ρ c main_v3 (by decide)).trans (W1_v3 m ρ c)
theorem W2_v25 (c : Dev nD) : W2 m ρ c (Proc.devRef .tc main_v25) = val_main_v25 (F := Ideal) (a2 m c) := (W2_of_ne m ρ c main_v25 (by decide)).trans (W1_v25 m ρ c)
theorem W2_v27 (c : Dev nD) : W2 m ρ c (Proc.devRef .tc main_v27) = val_main_v27 (F := Ideal) (a2 m c) := (W2_of_ne m ρ c main_v27 (by decide)).trans (W1_v27 m ρ c)
theorem W2_arg3 (c : Dev nD) : W2 m ρ c (Proc.devRef .tc main_arg3) = a3 m c := (W2_of_ne m ρ c main_arg3 (by decide)).trans (W1_arg3 m ρ c)
theorem W2_arg4 (c : Dev nD) : W2 m ρ c (Proc.devRef .tc main_arg4) = a4 m c := (W2_of_ne m ρ c main_arg4 (by decide)).trans (W1_arg4 m ρ c)
/-- The launch's first output is the reference's `dot_general` stage. -/
theorem W2_v34_0 (c : Dev nD) : W2 m ρ c (Proc.devRef .tc main_v34_0) = val_main_v32 (F := Ideal) (a0 m c) (a3 m c) := (W2_arr m ρ c 4).trans ((Tiles0.final_product (V1 m ρ) c).trans (by
    show product (W1 m ρ c (Proc.devRef .tc main_arg0)) (W1 m ρ c (Proc.devRef .tc main_v29)) = _
    rw [W1_arg0 m ρ c, W1_v29 m ρ c]
    unfold val_main_v32
    exact (Cert.LayerBridge.dot_eq _ _).symm))
theorem W2_v34_1 (c : Dev nD) : W2 m ρ c (Proc.devRef .tc main_v34_1) = selfLoop (a0 m c) (val_main_v29 (F := Ideal) (a3 m c)) (shapeCast S50000x1 (val_main_v27 (F := Ideal) (a2 m c)) shapeCasts_S50000_S50000x1) (shapeCast S1x128 (val_main_v31 (F := Ideal) (a4 m c)) shapeCasts_S128_S1x128) := (W2_arr m ρ c 5).trans ((Tiles0.final_selfLoop (V1 m ρ) c).trans (by
    show selfLoop (W1 m ρ c (Proc.devRef .tc main_arg0)) (W1 m ρ c (Proc.devRef .tc main_v29)) (W1 m ρ c (Proc.devRef .tc main_v33)) (W1 m ρ c (Proc.devRef .tc main_v32)) = _
    rw [W1_arg0 m ρ c, W1_v29 m ρ c, W1_v33 m ρ c, W1_v32 m ρ c]))

/-! ## Before the second launch -/

theorem W5_v1 (c : Dev nD) : W5 m ρ c (Proc.devRef .tc main_v1) = val_main_v1 (F := Ideal) (a2 m c) := by
  show StableHlo.after hostOps1_2 (StableHlo.after hostOps1_1 (StableHlo.after hostOps1 (W2 m ρ c))) (Proc.devRef .tc main_v1) = _
  after_results_simp
  exact W2_v1 m ρ c
theorem W5_v3 (c : Dev nD) : W5 m ρ c (Proc.devRef .tc main_v3) = val_main_v3 (F := Ideal) (a2 m c) := by
  show StableHlo.after hostOps1_2 (StableHlo.after hostOps1_1 (StableHlo.after hostOps1 (W2 m ρ c))) (Proc.devRef .tc main_v3) = _
  after_results_simp
  exact W2_v3 m ρ c
theorem W5_v25 (c : Dev nD) : W5 m ρ c (Proc.devRef .tc main_v25) = val_main_v25 (F := Ideal) (a2 m c) := by
  show StableHlo.after hostOps1_2 (StableHlo.after hostOps1_1 (StableHlo.after hostOps1 (W2 m ρ c))) (Proc.devRef .tc main_v25) = _
  after_results_simp
  exact W2_v25 m ρ c
theorem W5_v27 (c : Dev nD) : W5 m ρ c (Proc.devRef .tc main_v27) = val_main_v27 (F := Ideal) (a2 m c) := by
  show StableHlo.after hostOps1_2 (StableHlo.after hostOps1_1 (StableHlo.after hostOps1 (W2 m ρ c))) (Proc.devRef .tc main_v27) = _
  after_results_simp
  exact W2_v27 m ρ c
theorem W5_arg3 (c : Dev nD) : W5 m ρ c (Proc.devRef .tc main_arg3) = a3 m c := by
  show StableHlo.after hostOps1_2 (StableHlo.after hostOps1_1 (StableHlo.after hostOps1 (W2 m ρ c))) (Proc.devRef .tc main_arg3) = _
  after_results_simp
  exact W2_arg3 m ρ c
theorem W5_arg4 (c : Dev nD) : W5 m ρ c (Proc.devRef .tc main_arg4) = a4 m c := by
  show StableHlo.after hostOps1_2 (StableHlo.after hostOps1_1 (StableHlo.after hostOps1 (W2 m ρ c))) (Proc.devRef .tc main_arg4) = _
  after_results_simp
  exact W2_arg4 m ρ c
/-- The rectifier's operands and result pass through its buffers unchanged. -/
theorem relu1_buffers (X : FVec Ideal S50000x128 .f32) :
    (TRef.toBuf (Val := Elt Ideal) (TRef.of main_v49 : TRef sig ⟨S50000x128, .f32⟩)
      (maximumf (F := Ideal) (s := S50000x128) (φ := .f32)
        (TRef.ofBuf (Val := Elt Ideal) (TRef.of main_v48 : TRef sig ⟨S50000x128, .f32⟩) X)
        (TRef.ofBuf (Val := Elt Ideal) (TRef.of main_call0_v0 : TRef sig ⟨S50000x128, .f32⟩)
          (TRef.toBuf (Val := Elt Ideal) (TRef.of main_call0_v0 : TRef sig ⟨S50000x128, .f32⟩)
            (broadcastInDim (α := Ideal .f32) S50000x128 ![] bcast_S_S50000x128
              (TRef.ofBuf (Val := Elt Ideal) (TRef.of main_call0_cst : TRef sig ⟨S_, .f32⟩)
                (TRef.toBuf (Val := Elt Ideal) (TRef.of main_call0_cst : TRef sig ⟨S_, .f32⟩) (constant (F := Ideal) S_ .f32 0x00000000#32)))))))
        : FVec Ideal S50000x128 .f32)
      = maximumf X (broadcastInDim S50000x128 ![] bcast_S_S50000x128 (constant (F := Ideal) S_ .f32 0x00000000#32)) := rfl

/-- The first layer's output, rectified, is the reference's. -/
theorem W5_v49 (c : Dev nD) : W5 m ρ c (Proc.devRef .tc main_v49) = val_main_v53 (F := Ideal) (a0 m c) (a2 m c) (a3 m c) (a4 m c) := by
  show StableHlo.after hostOps1_2 (StableHlo.after hostOps1_1 (StableHlo.after hostOps1 (W2 m ρ c))) (Proc.devRef .tc main_v49) = _
  after_results_simp
  rw [W2_v1 m ρ c, W2_v3 m ρ c, W2_v25 m ρ c, W2_v34_0 m ρ c, W2_v34_1 m ρ c]
  rw [Cert.LayerBridge.layer_sum]
  refine (relu1_buffers _).trans ?_
  rfl
theorem W5_v51 (c : Dev nD) : W5 m ρ c (Proc.devRef .tc main_v51) = val_main_v55 (F := Ideal) (a3 m c) := by
  show StableHlo.after hostOps1_2 (StableHlo.after hostOps1_1 (StableHlo.after hostOps1 (W2 m ρ c))) (Proc.devRef .tc main_v51) = _
  after_results_simp
  rw [W2_arg3 m ρ c]
  rfl
theorem W5_v54 (c : Dev nD) : W5 m ρ c (Proc.devRef .tc main_v54) = shapeCast S1x128 (val_main_v57 (F := Ideal) (a4 m c)) shapeCasts_S128_S1x128 := by
  show StableHlo.after hostOps1_2 (StableHlo.after hostOps1_1 (StableHlo.after hostOps1 (W2 m ρ c))) (Proc.devRef .tc main_v54) = _
  after_results_simp
  rw [W2_arg4 m ρ c]
  rfl
theorem W5_v55 (c : Dev nD) : W5 m ρ c (Proc.devRef .tc main_v55) = shapeCast S50000x1 (val_main_v27 (F := Ideal) (a2 m c)) shapeCasts_S50000_S50000x1 := by
  show StableHlo.after hostOps1_2 (StableHlo.after hostOps1_1 (StableHlo.after hostOps1 (W2 m ρ c))) (Proc.devRef .tc main_v55) = _
  after_results_simp
  rw [W2_v27 m ρ c]
  rfl

/-! ## After launch 2 -/

theorem W6_v1 (c : Dev nD) : W6 m ρ c (Proc.devRef .tc main_v1) = val_main_v1 (F := Ideal) (a2 m c) := (W6_of_ne m ρ c main_v1 (by decide)).trans (W5_v1 m ρ c)
theorem W6_v3 (c : Dev nD) : W6 m ρ c (Proc.devRef .tc main_v3) = val_main_v3 (F := Ideal) (a2 m c) := (W6_of_ne m ρ c main_v3 (by decide)).trans (W5_v3 m ρ c)
theorem W6_v25 (c : Dev nD) : W6 m ρ c (Proc.devRef .tc main_v25) = val_main_v25 (F := Ideal) (a2 m c) := (W6_of_ne m ρ c main_v25 (by decide)).trans (W5_v25 m ρ c)
theorem W6_v27 (c : Dev nD) : W6 m ρ c (Proc.devRef .tc main_v27) = val_main_v27 (F := Ideal) (a2 m c) := (W6_of_ne m ρ c main_v27 (by decide)).trans (W5_v27 m ρ c)
theorem W6_arg3 (c : Dev nD) : W6 m ρ c (Proc.devRef .tc main_arg3) = a3 m c := (W6_of_ne m ρ c main_arg3 (by decide)).trans (W5_arg3 m ρ c)
theorem W6_arg4 (c : Dev nD) : W6 m ρ c (Proc.devRef .tc main_arg4) = a4 m c := (W6_of_ne m ρ c main_arg4 (by decide)).trans (W5_arg4 m ρ c)
/-- The launch's first output is the reference's `dot_general` stage. -/
theorem W6_v56_0 (c : Dev nD) : W6 m ρ c (Proc.devRef .tc main_v56_0) = val_main_v58 (F := Ideal) (a0 m c) (a2 m c) (a3 m c) (a4 m c) := (W6_arr m ρ c 4).trans ((Tiles1.final_product (V5 m ρ) c).trans (by
    show product (W5 m ρ c (Proc.devRef .tc main_v49)) (W5 m ρ c (Proc.devRef .tc main_v51)) = _
    rw [W5_v49 m ρ c, W5_v51 m ρ c]
    unfold val_main_v58
    exact (Cert.LayerBridge.dot_eq _ _).symm))
theorem W6_v56_1 (c : Dev nD) : W6 m ρ c (Proc.devRef .tc main_v56_1) = selfLoop (val_main_v53 (F := Ideal) (a0 m c) (a2 m c) (a3 m c) (a4 m c)) (val_main_v55 (F := Ideal) (a3 m c)) (shapeCast S50000x1 (val_main_v27 (F := Ideal) (a2 m c)) shapeCasts_S50000_S50000x1) (shapeCast S1x128 (val_main_v57 (F := Ideal) (a4 m c)) shapeCasts_S128_S1x128) := (W6_arr m ρ c 5).trans ((Tiles1.final_selfLoop (V5 m ρ) c).trans (by
    show selfLoop (W5 m ρ c (Proc.devRef .tc main_v49)) (W5 m ρ c (Proc.devRef .tc main_v51)) (W5 m ρ c (Proc.devRef .tc main_v55)) (W5 m ρ c (Proc.devRef .tc main_v54)) = _
    rw [W5_v49 m ρ c, W5_v51 m ρ c, W5_v55 m ρ c, W5_v54 m ρ c]))

/-! ## Before the third launch -/

theorem W9_v1 (c : Dev nD) : W9 m ρ c (Proc.devRef .tc main_v1) = val_main_v1 (F := Ideal) (a2 m c) := by
  show StableHlo.after hostOps2_2 (StableHlo.after hostOps2_1 (StableHlo.after hostOps2 (W6 m ρ c))) (Proc.devRef .tc main_v1) = _
  after_results_simp
  exact W6_v1 m ρ c
theorem W9_v3 (c : Dev nD) : W9 m ρ c (Proc.devRef .tc main_v3) = val_main_v3 (F := Ideal) (a2 m c) := by
  show StableHlo.after hostOps2_2 (StableHlo.after hostOps2_1 (StableHlo.after hostOps2 (W6 m ρ c))) (Proc.devRef .tc main_v3) = _
  after_results_simp
  exact W6_v3 m ρ c
theorem W9_v25 (c : Dev nD) : W9 m ρ c (Proc.devRef .tc main_v25) = val_main_v25 (F := Ideal) (a2 m c) := by
  show StableHlo.after hostOps2_2 (StableHlo.after hostOps2_1 (StableHlo.after hostOps2 (W6 m ρ c))) (Proc.devRef .tc main_v25) = _
  after_results_simp
  exact W6_v25 m ρ c
theorem W9_v27 (c : Dev nD) : W9 m ρ c (Proc.devRef .tc main_v27) = val_main_v27 (F := Ideal) (a2 m c) := by
  show StableHlo.after hostOps2_2 (StableHlo.after hostOps2_1 (StableHlo.after hostOps2 (W6 m ρ c))) (Proc.devRef .tc main_v27) = _
  after_results_simp
  exact W6_v27 m ρ c
theorem W9_arg3 (c : Dev nD) : W9 m ρ c (Proc.devRef .tc main_arg3) = a3 m c := by
  show StableHlo.after hostOps2_2 (StableHlo.after hostOps2_1 (StableHlo.after hostOps2 (W6 m ρ c))) (Proc.devRef .tc main_arg3) = _
  after_results_simp
  exact W6_arg3 m ρ c
theorem W9_arg4 (c : Dev nD) : W9 m ρ c (Proc.devRef .tc main_arg4) = a4 m c := by
  show StableHlo.after hostOps2_2 (StableHlo.after hostOps2_1 (StableHlo.after hostOps2 (W6 m ρ c))) (Proc.devRef .tc main_arg4) = _
  after_results_simp
  exact W6_arg4 m ρ c
/-- The rectifier's operands and result pass through its buffers unchanged. -/
theorem relu2_buffers (X : FVec Ideal S50000x128 .f32) :
    (TRef.toBuf (Val := Elt Ideal) (TRef.of main_v71 : TRef sig ⟨S50000x128, .f32⟩)
      (maximumf (F := Ideal) (s := S50000x128) (φ := .f32)
        (TRef.ofBuf (Val := Elt Ideal) (TRef.of main_v70 : TRef sig ⟨S50000x128, .f32⟩) X)
        (TRef.ofBuf (Val := Elt Ideal) (TRef.of main_call1_v0 : TRef sig ⟨S50000x128, .f32⟩)
          (TRef.toBuf (Val := Elt Ideal) (TRef.of main_call1_v0 : TRef sig ⟨S50000x128, .f32⟩)
            (broadcastInDim (α := Ideal .f32) S50000x128 ![] bcast_S_S50000x128
              (TRef.ofBuf (Val := Elt Ideal) (TRef.of main_call1_cst : TRef sig ⟨S_, .f32⟩)
                (TRef.toBuf (Val := Elt Ideal) (TRef.of main_call1_cst : TRef sig ⟨S_, .f32⟩) (constant (F := Ideal) S_ .f32 0x00000000#32)))))))
        : FVec Ideal S50000x128 .f32)
      = maximumf X (broadcastInDim S50000x128 ![] bcast_S_S50000x128 (constant (F := Ideal) S_ .f32 0x00000000#32)) := rfl

/-- The second layer's output, rectified, is the reference's. -/
theorem W9_v71 (c : Dev nD) : W9 m ρ c (Proc.devRef .tc main_v71) = val_main_v79 (F := Ideal) (a0 m c) (a2 m c) (a3 m c) (a4 m c) := by
  show StableHlo.after hostOps2_2 (StableHlo.after hostOps2_1 (StableHlo.after hostOps2 (W6 m ρ c))) (Proc.devRef .tc main_v71) = _
  after_results_simp
  rw [W6_v1 m ρ c, W6_v3 m ρ c, W6_v25 m ρ c, W6_v56_0 m ρ c, W6_v56_1 m ρ c]
  rw [Cert.LayerBridge.layer_sum]
  refine (relu2_buffers _).trans ?_
  rfl
theorem W9_v73 (c : Dev nD) : W9 m ρ c (Proc.devRef .tc main_v73) = val_main_v81 (F := Ideal) (a3 m c) := by
  show StableHlo.after hostOps2_2 (StableHlo.after hostOps2_1 (StableHlo.after hostOps2 (W6 m ρ c))) (Proc.devRef .tc main_v73) = _
  after_results_simp
  rw [W6_arg3 m ρ c]
  rfl
theorem W9_v76 (c : Dev nD) : W9 m ρ c (Proc.devRef .tc main_v76) = shapeCast S1x128 (val_main_v83 (F := Ideal) (a4 m c)) shapeCasts_S128_S1x128 := by
  show StableHlo.after hostOps2_2 (StableHlo.after hostOps2_1 (StableHlo.after hostOps2 (W6 m ρ c))) (Proc.devRef .tc main_v76) = _
  after_results_simp
  rw [W6_arg4 m ρ c]
  rfl
theorem W9_v77 (c : Dev nD) : W9 m ρ c (Proc.devRef .tc main_v77) = shapeCast S50000x1 (val_main_v27 (F := Ideal) (a2 m c)) shapeCasts_S50000_S50000x1 := by
  show StableHlo.after hostOps2_2 (StableHlo.after hostOps2_1 (StableHlo.after hostOps2 (W6 m ρ c))) (Proc.devRef .tc main_v77) = _
  after_results_simp
  rw [W6_v27 m ρ c]
  rfl

/-! ## After launch 3 -/

theorem W10_v1 (c : Dev nD) : W10 m ρ c (Proc.devRef .tc main_v1) = val_main_v1 (F := Ideal) (a2 m c) := (W10_of_ne m ρ c main_v1 (by decide)).trans (W9_v1 m ρ c)
theorem W10_v3 (c : Dev nD) : W10 m ρ c (Proc.devRef .tc main_v3) = val_main_v3 (F := Ideal) (a2 m c) := (W10_of_ne m ρ c main_v3 (by decide)).trans (W9_v3 m ρ c)
theorem W10_v25 (c : Dev nD) : W10 m ρ c (Proc.devRef .tc main_v25) = val_main_v25 (F := Ideal) (a2 m c) := (W10_of_ne m ρ c main_v25 (by decide)).trans (W9_v25 m ρ c)
theorem W10_v27 (c : Dev nD) : W10 m ρ c (Proc.devRef .tc main_v27) = val_main_v27 (F := Ideal) (a2 m c) := (W10_of_ne m ρ c main_v27 (by decide)).trans (W9_v27 m ρ c)
theorem W10_arg3 (c : Dev nD) : W10 m ρ c (Proc.devRef .tc main_arg3) = a3 m c := (W10_of_ne m ρ c main_arg3 (by decide)).trans (W9_arg3 m ρ c)
theorem W10_arg4 (c : Dev nD) : W10 m ρ c (Proc.devRef .tc main_arg4) = a4 m c := (W10_of_ne m ρ c main_arg4 (by decide)).trans (W9_arg4 m ρ c)
/-- The launch's first output is the reference's `dot_general` stage. -/
theorem W10_v78_0 (c : Dev nD) : W10 m ρ c (Proc.devRef .tc main_v78_0) = val_main_v84 (F := Ideal) (a0 m c) (a2 m c) (a3 m c) (a4 m c) := (W10_arr m ρ c 4).trans ((Tiles2.final_product (V9 m ρ) c).trans (by
    show product (W9 m ρ c (Proc.devRef .tc main_v71)) (W9 m ρ c (Proc.devRef .tc main_v73)) = _
    rw [W9_v71 m ρ c, W9_v73 m ρ c]
    unfold val_main_v84
    exact (Cert.LayerBridge.dot_eq _ _).symm))
theorem W10_v78_1 (c : Dev nD) : W10 m ρ c (Proc.devRef .tc main_v78_1) = selfLoop (val_main_v79 (F := Ideal) (a0 m c) (a2 m c) (a3 m c) (a4 m c)) (val_main_v81 (F := Ideal) (a3 m c)) (shapeCast S50000x1 (val_main_v27 (F := Ideal) (a2 m c)) shapeCasts_S50000_S50000x1) (shapeCast S1x128 (val_main_v83 (F := Ideal) (a4 m c)) shapeCasts_S128_S1x128) := (W10_arr m ρ c 5).trans ((Tiles2.final_selfLoop (V9 m ρ) c).trans (by
    show selfLoop (W9 m ρ c (Proc.devRef .tc main_v71)) (W9 m ρ c (Proc.devRef .tc main_v73)) (W9 m ρ c (Proc.devRef .tc main_v77)) (W9 m ρ c (Proc.devRef .tc main_v76)) = _
    rw [W9_v71 m ρ c, W9_v73 m ρ c, W9_v77 m ρ c, W9_v76 m ρ c]))

/-! ## The returned array -/

/-- The third layer's output — the returned array — is the reference's result. -/
theorem W11_v92 (c : Dev nD) : W11 m ρ c (Proc.devRef .tc main_v92) = val_main_v104 (F := Ideal) (a0 m c) (a2 m c) (a3 m c) (a4 m c) := by
  show StableHlo.after hostOps3 (W10 m ρ c) (Proc.devRef .tc main_v92) = _
  after_results_simp
  rw [W10_v1 m ρ c, W10_v3 m ρ c, W10_v25 m ρ c, W10_v78_0 m ρ c, W10_v78_1 m ρ c]
  rw [Cert.LayerBridge.layer_sum]
  rfl

end Cert.KernelIdeal.Stages

end
-- ==== Proof.lean ====
/-
  Three stacked graph-convolution layers: the tiled kernel against the plain reference, on the extended reals.

  Both programs compute, per layer,   out = Â · (x · w) + b,   Â = D^(-1/2) (A + I) D^(-1/2),
  from the node features `x`, the edge list, the layer's weights `w` and bias `b`: the edge part as a gather of
  rows of `x · w`, a per-edge coefficient, and a scatter-add over destinations; the self-loop part as `deg⁻¹ · (x · w)`;
  a rectifier after the first two layers.  The graph quantities and the gather / scatter-add are the same operations in
  both programs.  The kernel differs in two ways:

  * `x · w` and `deg⁻¹ · (x · w) + b` come out of a launch tiled over the rows (25 tiles of 2000 rows), the operands
    narrowed to bf16 — the identity on exact values —, where the reference calls one `dot_general` and then multiplies
    and adds.  Tile by tile the launch writes rows of ONE function of its inputs, and the tiles cover all rows.
  * the last sum is grouped  messages + (self-loop + bias)  where the reference has  (messages + self-loop) + bias.
    Addition of extended reals is associative, infinities included, so no finiteness is needed.

  Hence layer by layer the kernel's array equals the reference's stage, and the returned array equals the reference's
  result; the second returned value is the untouched edge-feature argument in both programs.  The kernel's frames are
  the generated ones; the reference's frame is its generated run with the result dropped; the idealization rewrote
  nothing, so it is preserved trivially.
-/
import proofs.«116558_j9294309228961_2_alg».proof.Defs
import proofs.«116558_j9294309228961_2_alg».proof.Proof.Gen.Kernel
import proofs.«116558_j9294309228961_2_alg».proof.Proof.Gen.Kernel.Skeleton
import proofs.«116558_j9294309228961_2_alg».proof.Proof.Gen.Kernel.Launch
import proofs.«116558_j9294309228961_2_alg».proof.Proof.Gen.Kernel.Points
import proofs.«116558_j9294309228961_2_alg».proof.Proof.Gen.Kernel.Frame
import proofs.«116558_j9294309228961_2_alg».proof.Proof.Gen.KernelIdeal
import proofs.«116558_j9294309228961_2_alg».proof.Proof.Gen.KernelIdeal.Skeleton
import proofs.«116558_j9294309228961_2_alg».proof.Proof.Gen.KernelIdeal.Launch
import proofs.«116558_j9294309228961_2_alg».proof.Proof.Gen.KernelIdeal.Points
import proofs.«116558_j9294309228961_2_alg».proof.Proof.Gen.KernelIdeal.Frame
import proofs.«116558_j9294309228961_2_alg».proof.Proof.Gen.ReferenceIdeal
import proofs.«116558_j9294309228961_2_alg».proof.Proof.Gen.ReferenceIdeal.Run
import proofs.«116558_j9294309228961_2_alg».proof.Proof.Gen.ReferenceIdeal.Read
import proofs.«116558_j9294309228961_2_alg».proof.Proof.Gen.Pre_finite_inputs
import proofs.«116558_j9294309228961_2_alg».proof.Proof.KernelRun
import proofs.«116558_j9294309228961_2_alg».proof.Proof.Stages
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's run keeps its arguments; drop what it says about the result. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories agreeing on the arguments both programs end with the same two results: the reference's last stage at
    the kernel's arguments, and the edge features as launched. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v104 (F := Ideal) (Cert.KernelIdeal.Stages.a0 m c) (Cert.KernelIdeal.Stages.a2 m c)
      (Cert.KernelIdeal.Stages.a3 m c) (Cert.KernelIdeal.Stages.a4 m c),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.KernelRun.run_result (F := Ideal) m ρ)
    obtain ⟨hv, h0, h1, h2, h3, h4⟩ := h c
    exact ⟨hv.trans (Cert.KernelIdeal.Stages.W11_v92 m ρ c), h1, h0, h1, h2, h3, h4⟩
  · refine (θ_run Cert.ReferenceIdeal.defs _ _).mono (fun r h c => ?_) (Cert.ReferenceIdeal.Value.run (F := Ideal) m' ρ')
    obtain ⟨hv, h1, h0, -, h2, h3, h4⟩ := h c
    obtain ⟨e0, e1, e2, e3, e4⟩ := hagree c
    refine ⟨?_, h1.trans e1, h0, h1, h2, h3, h4⟩
    rw [hv, Cert.ReferenceIdeal.Read.val_main_v104_eq, e0, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
